-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128 .f32) (main_arg12 : FVec F S128x128 .f32) (main_arg13 : FVec F S128x128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_v48 main_v49 main_v50

def fn_part1 {F : FTy → Type} [FloatOps F] (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S262144x128 .f32) (main_arg1 : FVec F S262144x128 .f32) (main_arg2 : FVec F S262144x128 .f32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S262144x128 : Shape := ⟨2, ![262144, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x512 : Shape := ⟨2, ![1, 512]⟩
abbrev S2048x128 : Shape := ⟨2, ![2048, 128]⟩
abbrev S2048x512 : Shape := ⟨2, ![2048, 512]⟩

abbrev nBuf : Space → Nat
  | .hbm => 23
  | .vmem => 13
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x512, .f32⟩
  | .hbm, ⟨16, _⟩ => ⟨S128x512, .bf16⟩
  | .hbm, ⟨17, _⟩ => ⟨S128x512, .f32⟩
  | .hbm, ⟨18, _⟩ => ⟨S128x512, .bf16⟩
  | .hbm, ⟨19, _⟩ => ⟨S512, .f32⟩
  | .hbm, ⟨20, _⟩ => ⟨S1x512, .f32⟩
  | .hbm, ⟨21, _⟩ => ⟨S262144x128, .f32⟩
  | .hbm, ⟨22, _⟩ => ⟨S262144x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S128x128_S128x128_S128x128_S128x128_S128x512_d1 : Shape.Concatenates [S128x128, S128x128, S128x128, S128x128] S128x512 1
  bitsLt_bf16_f32 : FTy.bits .bf16 < FTy.bits .f32
  concatenates_S128_S128_S128_S128_S512_d0 : Shape.Concatenates [S128, S128, S128, S128] S512 0
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S262144x128.size a
  hwx0_6 : ∀ i : grid0.Coords, EltTy.bits .f32 = 32 ∨ (Rect.block (s := S262144x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S262144x128.size a
  hwx0_7 : ∀ i : grid0.Coords, EltTy.bits .f32 = 32 ∨ (Rect.block (s := S262144x128) S2048x128.size (cc0_transform_7 i) (hinb0_7 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S262144x512 : Shape := ⟨2, ![262144, 512]⟩
abbrev S1x512 : Shape := ⟨2, ![1, 512]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x512, .f32⟩
  | .hbm, ⟨16, _⟩ => ⟨S128x512, .f32⟩
  | .hbm, ⟨17, _⟩ => ⟨S512, .f32⟩
  | .hbm, ⟨18, _⟩ => ⟨S262144x512, .f32⟩
  | .hbm, ⟨19, _⟩ => ⟨S262144x512, .f32⟩
  | .hbm, ⟨20, _⟩ => ⟨S262144x512, .f32⟩
  | .hbm, ⟨21, _⟩ => ⟨S1x512, .f32⟩
  | .hbm, ⟨22, _⟩ => ⟨S262144x512, .f32⟩
  | .hbm, ⟨23, _⟩ => ⟨S262144x512, .f32⟩
  | .hbm, ⟨24, _⟩ => ⟨S262144x128, .f32⟩
  | .hbm, ⟨25, _⟩ => ⟨S262144x128, .f32⟩
  | .hbm, ⟨26, _⟩ => ⟨S262144x128, .f32⟩
  | .hbm, ⟨27, _⟩ => ⟨S262144x128, .f32⟩
  | .hbm, ⟨28, _⟩ => ⟨S262144x128, .f32⟩
  | .hbm, ⟨29, _⟩ => ⟨S262144x128, .f32⟩
  | .hbm, ⟨30, _⟩ => ⟨S_, .f32⟩
  | .hbm, ⟨31, _⟩ => ⟨S262144x128, .f32⟩
  | .hbm, ⟨32, _⟩ => ⟨S262144x128, .f32⟩
  | .hbm, ⟨33, _⟩ => ⟨S_, .f32⟩
  | .hbm, ⟨34, _⟩ => ⟨S262144x128, .f32⟩
  | .hbm, ⟨35, _⟩ => ⟨S262144x128, .f32⟩
  | .hbm, ⟨36, _⟩ => ⟨S262144x128, .f32⟩
  | .hbm, ⟨37, _⟩ => ⟨S262144x128, .f32⟩
  | .hbm, ⟨38, _⟩ => ⟨S_, .f32⟩
  | .hbm, ⟨39, _⟩ => ⟨S262144x128, .f32⟩
  | .hbm, ⟨40, _⟩ => ⟨S262144x128, .f32⟩
  | .hbm, ⟨41, _⟩ => ⟨S_, .f32⟩
  | .hbm, ⟨42, _⟩ => ⟨S262144x128, .f32⟩
  | .hbm, ⟨43, _⟩ => ⟨S262144x128, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S_, .f32⟩
  | .hbm, ⟨48, _⟩ => ⟨S262144x128, .f32⟩
  | .hbm, ⟨49, _⟩ => ⟨S262144x128, .f32⟩
  | .hbm, ⟨50, _⟩ => ⟨S_, .f32⟩
  | .hbm, ⟨51, _⟩ => ⟨S262144x128, .f32⟩
  | .hbm, ⟨52, _⟩ => ⟨S262144x128, .f32⟩
  | .hbm, ⟨53, _⟩ => ⟨S262144x128, .f32⟩
  | .hbm, ⟨54, _⟩ => ⟨S262144x128, .f32⟩
  | .hbm, ⟨55, _⟩ => ⟨S262144x128, .f32⟩
  | .hbm, ⟨56, _⟩ => ⟨S262144x128, .f32⟩
  | .hbm, ⟨57, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  slices_S262144x512_S262144x128_0_0 : S262144x512.Slices ![0, 0] S262144x128
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  bcast_S_S262144x128 : S_.BroadcastsInDim S262144x128 (![] : Fin 0 → Fin S262144x128.rank)
  dot_S262144x128_S128x512_S262144x512_1_0_0_1_n_n_wf : DotDims.WF S262144x128 S128x512 S262144x512 [1] [0] [0] [1] [] []

variable [Facts₀]

def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf

class Facts : Prop extends Facts₀ where

variable [Facts]
-- ==== Proof.BitsRegion.lean ====
/-
  The fused LSTM cell as a pipeline over its 128 batch tiles (program `Kernel`, at any float instance).

  @main first joins the four gate matrices of the input side into one [128, 512] matrix and rounds it to bf16,
  does the same for the hidden side, joins the four bias rows into one [1, 512] row, and then launches one region
  whose grid point `t` works on rows 2048·t … 2048·t + 2047 of the batch. Window 0, 1, 2 carry that tile of
  x, h and c; windows 3, 4, 5 carry the whole joined matrices and the bias row (the same block at every point);
  windows 6 and 7 receive the tile of the new hidden state and of the new cell state.

  This module proves that the program runs to the end and says what every array holds then:
  * `entry`: what each buffer holds when the region is entered (the six joining operations applied to the launch
    memory), and `entry_arg*`: none of them writes an argument;
  * `tile`: a window's block at a grid point, read off the entry contents;
  * `hiddenTile`, `cellTile`: what the body leaves in the two output buffers — each is stored whole, once, so the
    buffer holds exactly the stored value, a function of the six input tiles;
  * `bodyRuns`: the body's separation-logic triple; `cells`: the per-point description of all eight windows;
  * `runs`: every fair execution terminates with each window's array at what the point-by-point write-backs make
    of it and every other buffer as at entry; `argumentsKept`: in particular the fifteen arguments end unchanged.
-/
import proofs.«173723_j14362370638361_1_alg».proof.Proof.Gen.Kernel.Launch
import proofs.«173723_j14362370638361_1_alg».proof.Proof.Gen.Kernel.Skeleton
import proofs.«173723_j14362370638361_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the six joining operations. -/
abbrev entry (c : Dev nD) (b : Ref sig .tc) : Buf (Elt F) ((c : Thread nD τ).loc b) :=
  StableHlo.after hostOps0 (fun b => m (c, b)) b

/-- None of the six operations allocates. -/
theorem joins_fresh : (hostOps0 : List (HloOp τ sig (Elt F))).Forall fun op => op.fresh = ∅ := by
  simp only [List.Forall]; repeat' constructor

/-- @main is those six operations and then the region. -/
theorem mainShape (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub joins_fresh main_chain

/-- The six operations write `main_v0 … main_v5` only; a buffer other than those is found as launched. -/
theorem entry_of_ne (c : Dev nD) (b : Ref sig .tc) (h0 : b ≠ main_v0) (h1 : b ≠ main_v1) (h2 : b ≠ main_v2)
    (h3 : b ≠ main_v3) (h4 : b ≠ main_v4) (h5 : b ≠ main_v5) : entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem entry_arg0 (c : Dev nD) : entry m c main_arg0 = m ((c : Thread nD τ).loc main_arg0) :=
  entry_of_ne m c main_arg0 (by decide) (by decide) (by decide) (by decide) (by decide) (by decide)
theorem entry_arg1 (c : Dev nD) : entry m c main_arg1 = m ((c : Thread nD τ).loc main_arg1) :=
  entry_of_ne m c main_arg1 (by decide) (by decide) (by decide) (by decide) (by decide) (by decide)
theorem entry_arg2 (c : Dev nD) : entry m c main_arg2 = m ((c : Thread nD τ).loc main_arg2) :=
  entry_of_ne m c main_arg2 (by decide) (by decide) (by decide) (by decide) (by decide) (by decide)
theorem entry_arg3 (c : Dev nD) : entry m c main_arg3 = m ((c : Thread nD τ).loc main_arg3) :=
  entry_of_ne m c main_arg3 (by decide) (by decide) (by decide) (by decide) (by decide) (by decide)
theorem entry_arg4 (c : Dev nD) : entry m c main_arg4 = m ((c : Thread nD τ).loc main_arg4) :=
  entry_of_ne m c main_arg4 (by decide) (by decide) (by decide) (by decide) (by decide) (by decide)
theorem entry_arg5 (c : Dev nD) : entry m c main_arg5 = m ((c : Thread nD τ).loc main_arg5) :=
  entry_of_ne m c main_arg5 (by decide) (by decide) (by decide) (by decide) (by decide) (by decide)
theorem entry_arg6 (c : Dev nD) : entry m c main_arg6 = m ((c : Thread nD τ).loc main_arg6) :=
  entry_of_ne m c main_arg6 (by decide) (by decide) (by decide) (by decide) (by decide) (by decide)
theorem entry_arg7 (c : Dev nD) : entry m c main_arg7 = m ((c : Thread nD τ).loc main_arg7) :=
  entry_of_ne m c main_arg7 (by decide) (by decide) (by decide) (by decide) (by decide) (by decide)
theorem entry_arg8 (c : Dev nD) : entry m c main_arg8 = m ((c : Thread nD τ).loc main_arg8) :=
  entry_of_ne m c main_arg8 (by decide) (by decide) (by decide) (by decide) (by decide) (by decide)
theorem entry_arg9 (c : Dev nD) : entry m c main_arg9 = m ((c : Thread nD τ).loc main_arg9) :=
  entry_of_ne m c main_arg9 (by decide) (by decide) (by decide) (by decide) (by decide) (by decide)
theorem entry_arg10 (c : Dev nD) : entry m c main_arg10 = m ((c : Thread nD τ).loc main_arg10) :=
  entry_of_ne m c main_arg10 (by decide) (by decide) (by decide) (by decide) (by decide) (by decide)
theorem entry_arg11 (c : Dev nD) : entry m c main_arg11 = m ((c : Thread nD τ).loc main_arg11) :=
  entry_of_ne m c main_arg11 (by decide) (by decide) (by decide) (by decide) (by decide) (by decide)
theorem entry_arg12 (c : Dev nD) : entry m c main_arg12 = m ((c : Thread nD τ).loc main_arg12) :=
  entry_of_ne m c main_arg12 (by decide) (by decide) (by decide) (by decide) (by decide) (by decide)
theorem entry_arg13 (c : Dev nD) : entry m c main_arg13 = m ((c : Thread nD τ).loc main_arg13) :=
  entry_of_ne m c main_arg13 (by decide) (by decide) (by decide) (by decide) (by decide) (by decide)
theorem entry_arg14 (c : Dev nD) : entry m c main_arg14 = m ((c : Thread nD τ).loc main_arg14) :=
  entry_of_ne m c main_arg14 (by decide) (by decide) (by decide) (by decide) (by decide) (by decide)

/-! ## The windows' blocks -/

/-- Window `w`'s block at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current buffer holds its block at every point, whether it was fetched there or kept from the
    point before (windows 3, 4, 5 are fetched once: their block index never moves). -/
theorem found0_of {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- Input window 1's current buffer holds its block at every point, whether it was fetched there or kept from the
    point before (windows 3, 4, 5 are fetched once: their block index never moves). -/
theorem found1_of {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- Input window 2's current buffer holds its block at every point, whether it was fetched there or kept from the
    point before (windows 3, 4, 5 are fetched once: their block index never moves). -/
theorem found2_of {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- Input window 3's current buffer holds its block at every point, whether it was fetched there or kept from the
    point before (windows 3, 4, 5 are fetched once: their block index never moves). -/
theorem found3_of {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
/-- Input window 4's current buffer holds its block at every point, whether it was fetched there or kept from the
    point before (windows 3, 4, 5 are fetched once: their block index never moves). -/
theorem found4_of {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)
/-- Input window 5's current buffer holds its block at every point, whether it was fetched there or kept from the
    point before (windows 3, 4, 5 are fetched once: their block index never moves). -/
theorem found5_of {c : Dev nD} (dat : Dat τ (Elt F) Unit ℕ (UR sig nD τ) ℕ cfg0 c) (hA : dat.A 5 = entry m c (Pipeline.arrRef spec0 5))
    (hafter : ∀ t, dat.after 5 t = tile m c 5 t) (t : Fin cfg0.N) (d) : dat.before 5 t d = tile m c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)

/-! ## The arguments at the end, from a run that describes every array -/

/-- From a run ending with every window's array at what the write-backs make of it and every other buffer as at
    entry: the three batch arguments are input windows' arrays (never written back), the twelve parameter arguments
    bypass the region, and no joining operation wrote any of them. -/
theorem argumentsKept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩) h

/-! ## The body's accesses: each buffer is loaded and stored whole -/

abbrev wholeTile : Rect S2048x128 := Rect.unit (s := S2048x128) ![0, 0] S2048x128.size inb_S2048x128_S2048x128_0_0
abbrev wholeGates : Rect S128x512 := Rect.unit (s := S128x512) ![0, 0] S128x512.size inb_S128x512_S128x512_0_0
abbrev wholeBias : Rect S1x512 := Rect.unit (s := S1x512) ![0, 0] S1x512.size inb_S1x512_S1x512_0_0

/-! ## What the body leaves in the two output buffers -/

/-- The new hidden state's buffer after the body: its one store, of `o · tanh c'`, over the six input tiles
    (x, h, c, the joined input-side and hidden-side matrices, the bias row). -/
def hiddenTile (x h cc : Vec F S2048x128 .f32) (wx wh : Vec F S128x512 .bf16) (b : Vec F S1x512 .f32) : Vec F S2048x128 .f32 :=
  View.canon [⟨wholeTile, k0_pay3 (View.ld x wholeTile) (View.ld h wholeTile) (View.ld wx wholeGates) (View.ld wh wholeGates) (View.ld b wholeBias) (View.ld cc wholeTile)⟩]

/-- The new cell state's buffer after the body: its one store, of `f · c + i · g`. -/
def cellTile (x h cc : Vec F S2048x128 .f32) (wx wh : Vec F S128x512 .bf16) (b : Vec F S1x512 .f32) : Vec F S2048x128 .f32 :=
  View.canon [⟨wholeTile, k0_pay2 (View.ld x wholeTile) (View.ld h wholeTile) (View.ld wx wholeGates) (View.ld wh wholeGates) (View.ld b wholeBias) (View.ld cc wholeTile)⟩]

/-- One whole-buffer store covers the buffer. -/
theorem storeCovers (p0 : Vec F S2048x128 .f32) (y : S2048x128.Idx) :
    ∃ pc ∈ ([⟨wholeTile, p0⟩] : List (View.Piece (Elt F) S2048x128 .f32)), y ∈ pc.1.set :=
  View.cover_of_tiled [⟨wholeTile, p0⟩] S2048x128.size (by rfl) y

/-! ## The body's triple -/

set_option maxHeartbeats 1000000 in
/-- The body on whole buffers — the six inputs at read contents, the two outputs at anything — runs to the
    continuation with the inputs as they were, the hidden-state buffer at `hiddenTile` and the cell-state buffer
    at `cellTile` of the inputs. (It also loads each output buffer once before storing into it; the loaded value
    is used nowhere.) -/
theorem bodyRuns (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x512 .bf16) (harg4 : arg4.IsWhole)
    (arg5 : Memref sig .tc .vmem S128x512 .bf16) (harg5 : arg5.IsWhole) (arg6 : Memref sig .tc .vmem S1x512 .f32) (harg6 : arg6.IsWhole)
    (arg7 : Memref sig .tc .vmem S2048x128 .f32) (harg7 : arg7.IsWhole) (arg8 : Memref sig .tc .vmem S2048x128 .f32) (harg8 : arg8.IsWhole)
    (x h cc : Vec F S2048x128 .f32) (wx wh : Vec F S128x512 .bf16) (b : Vec F S1x512 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare wh ∗ owns (c : Thread nD τ) arg6 fullShare b
            ∗ owns (c : Thread nD τ) arg7 fullShare (hiddenTile x h cc wx wh b) ∗ owns (c : Thread nD τ) arg8 fullShare (cellTile x h cc wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (storeCovers _)
  iexists _; isplitr
  swap; · iexact H7
  ipureintro
  exact View.read_writes_eq_canon _ _ _ (storeCovers _)

/-! ## The pipeline's description, point by point -/

/-- On core `c`: the arrays as the region finds them; after the body at point `t` each input buffer still at its
    block, the two output buffers at `hiddenTile` / `cellTile` of the six input blocks; no scratch, nothing owed. -/
def cells (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => hiddenTile (tile m c 0 t) (tile m c 1 t) (tile m c 2 t) (tile m c 3 t) (tile m c 4 t) (tile m c 5 t)
    | ⟨7, _⟩ => cellTile (tile m c 0 t) (tile m c 1 t) (tile m c 2 t) (tile m c 3 t) (tile m c 4 t) (tile m c 5 t)
  Φ _ := Pipeline.ΦA spec0 c
  q _ := fullShare
  owed _ := 0

theorem cells_A (c : Dev nD) (w : Fin cfg0.W) : (cells m 0 c).A w = entry m c (Pipeline.arrRef spec0 w) := by
  dsimp only [cells]

theorem after0 (c : Dev nD) (t : Fin cfg0.N) : (cells m 0 c).after 0 t = tile m c 0 t := by dsimp only [cells]
theorem after1 (c : Dev nD) (t : Fin cfg0.N) : (cells m 0 c).after 1 t = tile m c 1 t := by dsimp only [cells]
theorem after2 (c : Dev nD) (t : Fin cfg0.N) : (cells m 0 c).after 2 t = tile m c 2 t := by dsimp only [cells]
theorem after3 (c : Dev nD) (t : Fin cfg0.N) : (cells m 0 c).after 3 t = tile m c 3 t := by dsimp only [cells]
theorem after4 (c : Dev nD) (t : Fin cfg0.N) : (cells m 0 c).after 4 t = tile m c 4 t := by dsimp only [cells]
theorem after5 (c : Dev nD) (t : Fin cfg0.N) : (cells m 0 c).after 5 t = tile m c 5 t := by dsimp only [cells]
theorem after6 (c : Dev nD) (t : Fin cfg0.N) : (cells m 0 c).after 6 t = hiddenTile (tile m c 0 t) (tile m c 1 t) (tile m c 2 t) (tile m c 3 t) (tile m c 4 t) (tile m c 5 t) := by dsimp only [cells]
theorem after7 (c : Dev nD) (t : Fin cfg0.N) : (cells m 0 c).after 7 t = cellTile (tile m c 0 t) (tile m c 1 t) (tile m c 2 t) (tile m c 3 t) (tile m c 4 t) (tile m c 5 t) := by dsimp only [cells]

theorem found0 (c : Dev nD) (t : Fin cfg0.N) (d) : (cells m 0 c).before 0 t d = tile m c 0 t :=
  found0_of m (cells m 0 c) (cells_A m c 0) (after0 m c) t d
theorem found1 (c : Dev nD) (t : Fin cfg0.N) (d) : (cells m 0 c).before 1 t d = tile m c 1 t :=
  found1_of m (cells m 0 c) (cells_A m c 1) (after1 m c) t d
theorem found2 (c : Dev nD) (t : Fin cfg0.N) (d) : (cells m 0 c).before 2 t d = tile m c 2 t :=
  found2_of m (cells m 0 c) (cells_A m c 2) (after2 m c) t d
theorem found3 (c : Dev nD) (t : Fin cfg0.N) (d) : (cells m 0 c).before 3 t d = tile m c 3 t :=
  found3_of m (cells m 0 c) (cells_A m c 3) (after3 m c) t d
theorem found4 (c : Dev nD) (t : Fin cfg0.N) (d) : (cells m 0 c).before 4 t d = tile m c 4 t :=
  found4_of m (cells m 0 c) (cells_A m c 4) (after4 m c) t d
theorem found5 (c : Dev nD) (t : Fin cfg0.N) (d) : (cells m 0 c).before 5 t d = tile m c 5 t :=
  found5_of m (cells m 0 c) (cells_A m c 5) (after5 m c) t d

/-! ## The body obligation, at a generic point -/

/-- What the body is called with at point `t`, the windows one by one, -/
def bodyPre (c : Dev nD) (t : Fin cfg0.N) : sProp 𝕄 :=
  iprop((cells m 0 c).Φ t.castSucc ∗ (cells m 0 c).owesAt () t.castSucc
    ∗ (∃ d, owns (c : Thread nD τ) (st0_0 t) fullShare ((cells m 0 c).before 0 t d))
    ∗ (∃ d, owns (c : Thread nD τ) (st0_1 t) fullShare ((cells m 0 c).before 1 t d))
    ∗ (∃ d, owns (c : Thread nD τ) (st0_2 t) fullShare ((cells m 0 c).before 2 t d))
    ∗ (∃ d, owns (c : Thread nD τ) (st0_3 t) fullShare ((cells m 0 c).before 3 t d))
    ∗ (∃ d, owns (c : Thread nD τ) (st0_4 t) fullShare ((cells m 0 c).before 4 t d))
    ∗ (∃ d, owns (c : Thread nD τ) (st0_5 t) fullShare ((cells m 0 c).before 5 t d))
    ∗ (∃ d, owns (c : Thread nD τ) (st0_6 t) fullShare ((cells m 0 c).before 6 t d))
    ∗ (∃ d, owns (c : Thread nD τ) (st0_7 t) fullShare ((cells m 0 c).before 7 t d)))

/-- and what it returns. -/
def bodyPost (c : Dev nD) (t : Fin cfg0.N) : sProp 𝕄 :=
  iprop((cells m 0 c).Φ t.succ ∗ (cells m 0 c).owesAt () t.succ
    ∗ owns (c : Thread nD τ) (st0_0 t) fullShare ((cells m 0 c).after 0 t)
    ∗ owns (c : Thread nD τ) (st0_1 t) fullShare ((cells m 0 c).after 1 t)
    ∗ owns (c : Thread nD τ) (st0_2 t) fullShare ((cells m 0 c).after 2 t)
    ∗ owns (c : Thread nD τ) (st0_3 t) fullShare ((cells m 0 c).after 3 t)
    ∗ owns (c : Thread nD τ) (st0_4 t) fullShare ((cells m 0 c).after 4 t)
    ∗ owns (c : Thread nD τ) (st0_5 t) fullShare ((cells m 0 c).after 5 t)
    ∗ owns (c : Thread nD τ) (st0_6 t) fullShare ((cells m 0 c).after 6 t)
    ∗ owns (c : Thread nD τ) (st0_7 t) fullShare ((cells m 0 c).after 7 t))

/-- The body at any point: the input buffers hold their blocks, so `bodyRuns` applies. -/
theorem bodyAtPoint (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (cells m 0 c).Φ t.succ = (cells m 0 c).Φ t.castSucc from rfl,
    show (cells m 0 c).owesAt () t.succ = (cells m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyRuns c Set.univ (grid0.coords t) _ _ _ _ _ _ _ _ _ _ _ _ _ _ _ _ (tile m c 0 t) (tile m c 1 t) (tile m c 2 t) (tile m c 3 t) (tile m c 4 t) (tile m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem bodyAtEveryPoint (c : Dev nD) : BodyObligation (cells (F := F) m 0 c) (defs₀ (F := F)) Variants.none () Set.univ := fun t => by
  rw [bigSep_W0, bigSep_W0]
  exact bodyAtPoint m c t

/-! ## The run -/

set_option backward.isDefEq.respectTransparency.types false in
/-- From any memory with zero counters every weakly fair execution of @main terminates, and at the end every
    window's array holds what the point-by-point write-backs make of it and every other unscoped buffer what it
    held at region entry. -/
theorem runs : θ_run defs (onTc (τ := τ) (main (F := F))) (s₀ m ρ) (Pipeline.FramePost cfgs (cells m) 0 (entry m)) :=
  Pipeline.θ_run_frame cfgs (cells m) (0 : Fin 1) launch0 defs₀ Variants.none m ρ main
    (hbody := fun c => (bodyAtEveryPoint m c).loose) (hshare := fun c => (cells m 0 c).share_full fun _ => rfl)
    (howed := fun _ _ => rfl) (V := entry m) (hmain := mainShape m Variants.none) (hA := cells_A m) (hΦ := fun _ _ => rfl)

/-- The program runs, nothing faults, and its fifteen argument arrays end unchanged. -/
theorem argumentsKept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  argumentsKept_of m ρ (cells m) (cells_A m) (runs m ρ)

end Cert.Kernel.Cell

end
-- ==== Proof.IdealRegion.lean ====
/-
  The fused LSTM cell as a pipeline over its 128 batch tiles (program `KernelIdeal`, at any float instance).

  @main first joins the four gate matrices of the input side into one [128, 512] matrix and rounds it to bf16,
  does the same for the hidden side, joins the four bias rows into one [1, 512] row, and then launches one region
  whose grid point `t` works on rows 2048·t … 2048·t + 2047 of the batch. Window 0, 1, 2 carry that tile of
  x, h and c; windows 3, 4, 5 carry the whole joined matrices and the bias row (the same block at every point);
  windows 6 and 7 receive the tile of the new hidden state and of the new cell state.

  This module proves that the program runs to the end and says what every array holds then:
  * `entry`: what each buffer holds when the region is entered (the six joining operations applied to the launch
    memory), and `entry_arg*`: none of them writes an argument;
  * `tile`: a window's block at a grid point, read off the entry contents;
  * `hiddenTile`, `cellTile`: what the body leaves in the two output buffers — each is stored whole, once, so the
    buffer holds exactly the stored value, a function of the six input tiles;
  * `bodyRuns`: the body's separation-logic triple; `cells`: the per-point description of all eight windows;
  * `runs`: every fair execution terminates with each window's array at what the point-by-point write-backs make
    of it and every other buffer as at entry; `argumentsKept`: in particular the fifteen arguments end unchanged.
-/
import proofs.«173723_j14362370638361_1_alg».proof.Proof.Gen.KernelIdeal.Launch
import proofs.«173723_j14362370638361_1_alg».proof.Proof.Gen.KernelIdeal.Skeleton
import proofs.«173723_j14362370638361_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the six joining operations. -/
abbrev entry (c : Dev nD) (b : Ref sig .tc) : Buf (Elt F) ((c : Thread nD τ).loc b) :=
  StableHlo.after hostOps0 (fun b => m (c, b)) b

/-- None of the six operations allocates. -/
theorem joins_fresh : (hostOps0 : List (HloOp τ sig (Elt F))).Forall fun op => op.fresh = ∅ := by
  simp only [List.Forall]; repeat' constructor

/-- @main is those six operations and then the region. -/
theorem mainShape (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub joins_fresh main_chain

/-- The six operations write `main_v0 … main_v5` only; a buffer other than those is found as launched. -/
theorem entry_of_ne (c : Dev nD) (b : Ref sig .tc) (h0 : b ≠ main_v0) (h1 : b ≠ main_v1) (h2 : b ≠ main_v2)
    (h3 : b ≠ main_v3) (h4 : b ≠ main_v4) (h5 : b ≠ main_v5) : entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem entry_arg0 (c : Dev nD) : entry m c main_arg0 = m ((c : Thread nD τ).loc main_arg0) :=
  entry_of_ne m c main_arg0 (by decide) (by decide) (by decide) (by decide) (by decide) (by decide)
theorem entry_arg1 (c : Dev nD) : entry m c main_arg1 = m ((c : Thread nD τ).loc main_arg1) :=
  entry_of_ne m c main_arg1 (by decide) (by decide) (by decide) (by decide) (by decide) (by decide)
theorem entry_arg2 (c : Dev nD) : entry m c main_arg2 = m ((c : Thread nD τ).loc main_arg2) :=
  entry_of_ne m c main_arg2 (by decide) (by decide) (by decide) (by decide) (by decide) (by decide)
theorem entry_arg3 (c : Dev nD) : entry m c main_arg3 = m ((c : Thread nD τ).loc main_arg3) :=
  entry_of_ne m c main_arg3 (by decide) (by decide) (by decide) (by decide) (by decide) (by decide)
theorem entry_arg4 (c : Dev nD) : entry m c main_arg4 = m ((c : Thread nD τ).loc main_arg4) :=
  entry_of_ne m c main_arg4 (by decide) (by decide) (by decide) (by decide) (by decide) (by decide)
theorem entry_arg5 (c : Dev nD) : entry m c main_arg5 = m ((c : Thread nD τ).loc main_arg5) :=
  entry_of_ne m c main_arg5 (by decide) (by decide) (by decide) (by decide) (by decide) (by decide)
theorem entry_arg6 (c : Dev nD) : entry m c main_arg6 = m ((c : Thread nD τ).loc main_arg6) :=
  entry_of_ne m c main_arg6 (by decide) (by decide) (by decide) (by decide) (by decide) (by decide)
theorem entry_arg7 (c : Dev nD) : entry m c main_arg7 = m ((c : Thread nD τ).loc main_arg7) :=
  entry_of_ne m c main_arg7 (by decide) (by decide) (by decide) (by decide) (by decide) (by decide)
theorem entry_arg8 (c : Dev nD) : entry m c main_arg8 = m ((c : Thread nD τ).loc main_arg8) :=
  entry_of_ne m c main_arg8 (by decide) (by decide) (by decide) (by decide) (by decide) (by decide)
theorem entry_arg9 (c : Dev nD) : entry m c main_arg9 = m ((c : Thread nD τ).loc main_arg9) :=
  entry_of_ne m c main_arg9 (by decide) (by decide) (by decide) (by decide) (by decide) (by decide)
theorem entry_arg10 (c : Dev nD) : entry m c main_arg10 = m ((c : Thread nD τ).loc main_arg10) :=
  entry_of_ne m c main_arg10 (by decide) (by decide) (by decide) (by decide) (by decide) (by decide)
theorem entry_arg11 (c : Dev nD) : entry m c main_arg11 = m ((c : Thread nD τ).loc main_arg11) :=
  entry_of_ne m c main_arg11 (by decide) (by decide) (by decide) (by decide) (by decide) (by decide)
theorem entry_arg12 (c : Dev nD) : entry m c main_arg12 = m ((c : Thread nD τ).loc main_arg12) :=
  entry_of_ne m c main_arg12 (by decide) (by decide) (by decide) (by decide) (by decide) (by decide)
theorem entry_arg13 (c : Dev nD) : entry m c main_arg13 = m ((c : Thread nD τ).loc main_arg13) :=
  entry_of_ne m c main_arg13 (by decide) (by decide) (by decide) (by decide) (by decide) (by decide)
theorem entry_arg14 (c : Dev nD) : entry m c main_arg14 = m ((c : Thread nD τ).loc main_arg14) :=
  entry_of_ne m c main_arg14 (by decide) (by decide) (by decide) (by decide) (by decide) (by decide)

/-! ## The windows' blocks -/

/-- Window `w`'s block at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current buffer holds its block at every point, whether it was fetched there or kept from the
    point before (windows 3, 4, 5 are fetched once: their block index never moves). -/
theorem found0_of {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- Input window 1's current buffer holds its block at every point, whether it was fetched there or kept from the
    point before (windows 3, 4, 5 are fetched once: their block index never moves). -/
theorem found1_of {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- Input window 2's current buffer holds its block at every point, whether it was fetched there or kept from the
    point before (windows 3, 4, 5 are fetched once: their block index never moves). -/
theorem found2_of {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- Input window 3's current buffer holds its block at every point, whether it was fetched there or kept from the
    point before (windows 3, 4, 5 are fetched once: their block index never moves). -/
theorem found3_of {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
/-- Input window 4's current buffer holds its block at every point, whether it was fetched there or kept from the
    point before (windows 3, 4, 5 are fetched once: their block index never moves). -/
theorem found4_of {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)
/-- Input window 5's current buffer holds its block at every point, whether it was fetched there or kept from the
    point before (windows 3, 4, 5 are fetched once: their block index never moves). -/
theorem found5_of {c : Dev nD} (dat : Dat τ (Elt F) Unit ℕ (UR sig nD τ) ℕ cfg0 c) (hA : dat.A 5 = entry m c (Pipeline.arrRef spec0 5))
    (hafter : ∀ t, dat.after 5 t = tile m c 5 t) (t : Fin cfg0.N) (d) : dat.before 5 t d = tile m c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)

/-! ## The arguments at the end, from a run that describes every array -/

/-- From a run ending with every window's array at what the write-backs make of it and every other buffer as at
    entry: the three batch arguments are input windows' arrays (never written back), the twelve parameter arguments
    bypass the region, and no joining operation wrote any of them. -/
theorem argumentsKept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩) h

/-! ## The body's accesses: each buffer is loaded and stored whole -/

abbrev wholeTile : Rect S2048x128 := Rect.unit (s := S2048x128) ![0, 0] S2048x128.size inb_S2048x128_S2048x128_0_0
abbrev wholeGates : Rect S128x512 := Rect.unit (s := S128x512) ![0, 0] S128x512.size inb_S128x512_S128x512_0_0
abbrev wholeBias : Rect S1x512 := Rect.unit (s := S1x512) ![0, 0] S1x512.size inb_S1x512_S1x512_0_0

/-! ## What the body leaves in the two output buffers -/

/-- The new hidden state's buffer after the body: its one store, of `o · tanh c'`, over the six input tiles
    (x, h, c, the joined input-side and hidden-side matrices, the bias row). -/
def hiddenTile (x h cc : Vec F S2048x128 .f32) (wx wh : Vec F S128x512 .bf16) (b : Vec F S1x512 .f32) : Vec F S2048x128 .f32 :=
  View.canon [⟨wholeTile, k0_pay3 (View.ld x wholeTile) (View.ld h wholeTile) (View.ld wx wholeGates) (View.ld wh wholeGates) (View.ld b wholeBias) (View.ld cc wholeTile)⟩]

/-- The new cell state's buffer after the body: its one store, of `f · c + i · g`. -/
def cellTile (x h cc : Vec F S2048x128 .f32) (wx wh : Vec F S128x512 .bf16) (b : Vec F S1x512 .f32) : Vec F S2048x128 .f32 :=
  View.canon [⟨wholeTile, k0_pay2 (View.ld x wholeTile) (View.ld h wholeTile) (View.ld wx wholeGates) (View.ld wh wholeGates) (View.ld b wholeBias) (View.ld cc wholeTile)⟩]

/-- One whole-buffer store covers the buffer. -/
theorem storeCovers (p0 : Vec F S2048x128 .f32) (y : S2048x128.Idx) :
    ∃ pc ∈ ([⟨wholeTile, p0⟩] : List (View.Piece (Elt F) S2048x128 .f32)), y ∈ pc.1.set :=
  View.cover_of_tiled [⟨wholeTile, p0⟩] S2048x128.size (by rfl) y

/-! ## The body's triple -/

set_option maxHeartbeats 1000000 in
/-- The body on whole buffers — the six inputs at read contents, the two outputs at anything — runs to the
    continuation with the inputs as they were, the hidden-state buffer at `hiddenTile` and the cell-state buffer
    at `cellTile` of the inputs. (It also loads each output buffer once before storing into it; the loaded value
    is used nowhere.) -/
theorem bodyRuns (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x512 .bf16) (harg4 : arg4.IsWhole)
    (arg5 : Memref sig .tc .vmem S128x512 .bf16) (harg5 : arg5.IsWhole) (arg6 : Memref sig .tc .vmem S1x512 .f32) (harg6 : arg6.IsWhole)
    (arg7 : Memref sig .tc .vmem S2048x128 .f32) (harg7 : arg7.IsWhole) (arg8 : Memref sig .tc .vmem S2048x128 .f32) (harg8 : arg8.IsWhole)
    (x h cc : Vec F S2048x128 .f32) (wx wh : Vec F S128x512 .bf16) (b : Vec F S1x512 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cc
            ∗ owns (c : Thread nD τ) arg4 fullShare wx ∗ owns (c : Thread nD τ) arg5 fullShare wh ∗ owns (c : Thread nD τ) arg6 fullShare b
            ∗ owns (c : Thread nD τ) arg7 fullShare (hiddenTile x h cc wx wh b) ∗ owns (c : Thread nD τ) arg8 fullShare (cellTile x h cc wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (storeCovers _)
  iexists _; isplitr
  swap; · iexact H7
  ipureintro
  exact View.read_writes_eq_canon _ _ _ (storeCovers _)

/-! ## The pipeline's description, point by point -/

/-- On core `c`: the arrays as the region finds them; after the body at point `t` each input buffer still at its
    block, the two output buffers at `hiddenTile` / `cellTile` of the six input blocks; no scratch, nothing owed. -/
def cells (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => hiddenTile (tile m c 0 t) (tile m c 1 t) (tile m c 2 t) (tile m c 3 t) (tile m c 4 t) (tile m c 5 t)
    | ⟨7, _⟩ => cellTile (tile m c 0 t) (tile m c 1 t) (tile m c 2 t) (tile m c 3 t) (tile m c 4 t) (tile m c 5 t)
  Φ _ := Pipeline.ΦA spec0 c
  q _ := fullShare
  owed _ := 0

theorem cells_A (c : Dev nD) (w : Fin cfg0.W) : (cells m 0 c).A w = entry m c (Pipeline.arrRef spec0 w) := by
  dsimp only [cells]

theorem after0 (c : Dev nD) (t : Fin cfg0.N) : (cells m 0 c).after 0 t = tile m c 0 t := by dsimp only [cells]
theorem after1 (c : Dev nD) (t : Fin cfg0.N) : (cells m 0 c).after 1 t = tile m c 1 t := by dsimp only [cells]
theorem after2 (c : Dev nD) (t : Fin cfg0.N) : (cells m 0 c).after 2 t = tile m c 2 t := by dsimp only [cells]
theorem after3 (c : Dev nD) (t : Fin cfg0.N) : (cells m 0 c).after 3 t = tile m c 3 t := by dsimp only [cells]
theorem after4 (c : Dev nD) (t : Fin cfg0.N) : (cells m 0 c).after 4 t = tile m c 4 t := by dsimp only [cells]
theorem after5 (c : Dev nD) (t : Fin cfg0.N) : (cells m 0 c).after 5 t = tile m c 5 t := by dsimp only [cells]
theorem after6 (c : Dev nD) (t : Fin cfg0.N) : (cells m 0 c).after 6 t = hiddenTile (tile m c 0 t) (tile m c 1 t) (tile m c 2 t) (tile m c 3 t) (tile m c 4 t) (tile m c 5 t) := by dsimp only [cells]
theorem after7 (c : Dev nD) (t : Fin cfg0.N) : (cells m 0 c).after 7 t = cellTile (tile m c 0 t) (tile m c 1 t) (tile m c 2 t) (tile m c 3 t) (tile m c 4 t) (tile m c 5 t) := by dsimp only [cells]

theorem found0 (c : Dev nD) (t : Fin cfg0.N) (d) : (cells m 0 c).before 0 t d = tile m c 0 t :=
  found0_of m (cells m 0 c) (cells_A m c 0) (after0 m c) t d
theorem found1 (c : Dev nD) (t : Fin cfg0.N) (d) : (cells m 0 c).before 1 t d = tile m c 1 t :=
  found1_of m (cells m 0 c) (cells_A m c 1) (after1 m c) t d
theorem found2 (c : Dev nD) (t : Fin cfg0.N) (d) : (cells m 0 c).before 2 t d = tile m c 2 t :=
  found2_of m (cells m 0 c) (cells_A m c 2) (after2 m c) t d
theorem found3 (c : Dev nD) (t : Fin cfg0.N) (d) : (cells m 0 c).before 3 t d = tile m c 3 t :=
  found3_of m (cells m 0 c) (cells_A m c 3) (after3 m c) t d
theorem found4 (c : Dev nD) (t : Fin cfg0.N) (d) : (cells m 0 c).before 4 t d = tile m c 4 t :=
  found4_of m (cells m 0 c) (cells_A m c 4) (after4 m c) t d
theorem found5 (c : Dev nD) (t : Fin cfg0.N) (d) : (cells m 0 c).before 5 t d = tile m c 5 t :=
  found5_of m (cells m 0 c) (cells_A m c 5) (after5 m c) t d

/-! ## The body obligation, at a generic point -/

/-- What the body is called with at point `t`, the windows one by one, -/
def bodyPre (c : Dev nD) (t : Fin cfg0.N) : sProp 𝕄 :=
  iprop((cells m 0 c).Φ t.castSucc ∗ (cells m 0 c).owesAt () t.castSucc
    ∗ (∃ d, owns (c : Thread nD τ) (st0_0 t) fullShare ((cells m 0 c).before 0 t d))
    ∗ (∃ d, owns (c : Thread nD τ) (st0_1 t) fullShare ((cells m 0 c).before 1 t d))
    ∗ (∃ d, owns (c : Thread nD τ) (st0_2 t) fullShare ((cells m 0 c).before 2 t d))
    ∗ (∃ d, owns (c : Thread nD τ) (st0_3 t) fullShare ((cells m 0 c).before 3 t d))
    ∗ (∃ d, owns (c : Thread nD τ) (st0_4 t) fullShare ((cells m 0 c).before 4 t d))
    ∗ (∃ d, owns (c : Thread nD τ) (st0_5 t) fullShare ((cells m 0 c).before 5 t d))
    ∗ (∃ d, owns (c : Thread nD τ) (st0_6 t) fullShare ((cells m 0 c).before 6 t d))
    ∗ (∃ d, owns (c : Thread nD τ) (st0_7 t) fullShare ((cells m 0 c).before 7 t d)))

/-- and what it returns. -/
def bodyPost (c : Dev nD) (t : Fin cfg0.N) : sProp 𝕄 :=
  iprop((cells m 0 c).Φ t.succ ∗ (cells m 0 c).owesAt () t.succ
    ∗ owns (c : Thread nD τ) (st0_0 t) fullShare ((cells m 0 c).after 0 t)
    ∗ owns (c : Thread nD τ) (st0_1 t) fullShare ((cells m 0 c).after 1 t)
    ∗ owns (c : Thread nD τ) (st0_2 t) fullShare ((cells m 0 c).after 2 t)
    ∗ owns (c : Thread nD τ) (st0_3 t) fullShare ((cells m 0 c).after 3 t)
    ∗ owns (c : Thread nD τ) (st0_4 t) fullShare ((cells m 0 c).after 4 t)
    ∗ owns (c : Thread nD τ) (st0_5 t) fullShare ((cells m 0 c).after 5 t)
    ∗ owns (c : Thread nD τ) (st0_6 t) fullShare ((cells m 0 c).after 6 t)
    ∗ owns (c : Thread nD τ) (st0_7 t) fullShare ((cells m 0 c).after 7 t))

/-- The body at any point: the input buffers hold their blocks, so `bodyRuns` applies. -/
theorem bodyAtPoint (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (cells m 0 c).Φ t.succ = (cells m 0 c).Φ t.castSucc from rfl,
    show (cells m 0 c).owesAt () t.succ = (cells m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyRuns c Set.univ (grid0.coords t) _ _ _ _ _ _ _ _ _ _ _ _ _ _ _ _ (tile m c 0 t) (tile m c 1 t) (tile m c 2 t) (tile m c 3 t) (tile m c 4 t) (tile m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem bodyAtEveryPoint (c : Dev nD) : BodyObligation (cells (F := F) m 0 c) (defs₀ (F := F)) Variants.none () Set.univ := fun t => by
  rw [bigSep_W0, bigSep_W0]
  exact bodyAtPoint m c t

/-! ## The run -/

set_option backward.isDefEq.respectTransparency.types false in
/-- From any memory with zero counters every weakly fair execution of @main terminates, and at the end every
    window's array holds what the point-by-point write-backs make of it and every other unscoped buffer what it
    held at region entry. -/
theorem runs : θ_run defs (onTc (τ := τ) (main (F := F))) (s₀ m ρ) (Pipeline.FramePost cfgs (cells m) 0 (entry m)) :=
  Pipeline.θ_run_frame cfgs (cells m) (0 : Fin 1) launch0 defs₀ Variants.none m ρ main
    (hbody := fun c => (bodyAtEveryPoint m c).loose) (hshare := fun c => (cells m 0 c).share_full fun _ => rfl)
    (howed := fun _ _ => rfl) (V := entry m) (hmain := mainShape m Variants.none) (hA := cells_A m) (hΦ := fun _ _ => rfl)

/-- The program runs, nothing faults, and its fifteen argument arrays end unchanged. -/
theorem argumentsKept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  argumentsKept_of m ρ (cells m) (cells_A m) (runs m ρ)

end Cert.KernelIdeal.Cell

end
-- ==== Proof.LibTiles.lean ====
/-
  Two-dimensional tiles over the extended reals, read entry by entry.

  * a product of an m×k tile by a k×n tile accumulated into the zero tile: entry (a, b) is the sum over the contracted
    coordinate of the products of the entries;
  * a column (an m×1 tile) laid across n columns: entry (a, b) is the column's entry a;
  * a row (a 1×n tile) laid down m rows: entry (a, b) is the row's entry b.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx

variable {m n : Nat}

/-- The product of an m×k tile by a k×n tile (left operand contracted on its columns, right operand on its rows, no
    batch axes), accumulated into the zero tile, read at entry (a, b): the sum over the contracted coordinate `c` of
    `A (a, c) * B (c, b)`. `w` is the well-formedness of the dimension numbers, which a program states. -/
theorem matmul_zero_apply {k : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column laid across the columns of an m×n tile, read at entry (a, b): the column's entry `a`. -/
theorem broadcast_col_apply {α : Type} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) ?_
  intro ax
  match ax with
  | ⟨0, _⟩ =>
    show a.val = if m = 1 then 0 else a.val
    split
    · have := a.isLt; omega
    · rfl
  | ⟨1, _⟩ => rfl

/-- A row laid down the rows of an m×n tile, read at entry (a, b): the row's entry `b`. -/
theorem broadcast_row_apply {α : Type} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) ?_
  intro ax
  match ax with
  | ⟨0, _⟩ => rfl
  | ⟨1, _⟩ =>
    show b.val = if n = 1 then 0 else b.val
    split
    · have := b.isLt; omega
    · rfl

end Cert.LibTiles

end
-- ==== Proof.CellSpec.lean ====
/-
  One step of an LSTM cell with fused gate matrices, entry by entry over the extended reals.

  For a batch of rows `x`, `h`, `c` (each [262144, 128]), a fused input-side matrix `wx` and hidden-side matrix `wh`
  (each [128, 512], the four gates' [128, 128] blocks side by side in the order input, forget, candidate, output)
  and a fused bias `b` (512 entries), the pre-activation of row `r` in fused column `q` is

      pre r q = (Σ_k x[r,k] · wx[k,q] + Σ_k h[r,k] · wh[k,q]) + b[q],

  and, writing σ for the logistic function, column `j` of the new states is

      c'[r,j] = σ(pre r (128 + j)) · c[r,j] + σ(pre r j) · tanh(pre r (256 + j)),
      h'[r,j] = σ(pre r (384 + j)) · tanh(c'[r,j]).

  The logistic function on the extended reals is `1 / (1 + e^(-x))`, so a program that spells it out with a
  negation, an exponential, an addition to the float one and a division of the float one computes the same value.
-/
import Idealize.ShloMosaic.PureOps.Ideal
import Idealize.ShloMosaic.PureOps.Ideal.Laws
import Idealize.ShloMosaic.Lib.ValueIdx

noncomputable section

namespace Cert.LstmCell

open Idealize.ShloMosaic Idealize.ShloMosaic.ValueIdx

/-- Column `j` of the gate block that starts at fused column `o`. -/
abbrev col (o : Nat) (ho : o + 128 ≤ 512) (j : Fin 128) : Fin 512 := ⟨o + j.val, by have := j.isLt; omega⟩

/-- The gate pre-activation of batch row `r` in fused column `q`. -/
def pre (x h : (⟨2, ![262144, 128]⟩ : Shape).Idx → EReal) (wx wh : (⟨2, ![128, 512]⟩ : Shape).Idx → EReal)
    (b : (⟨1, ![512]⟩ : Shape).Idx → EReal) (r : Fin 262144) (q : Fin 512) : EReal :=
  (∑ k : Fin 128, x (ix2 r k) * wx (ix2 k q) + ∑ k : Fin 128, h (ix2 r k) * wh (ix2 k q)) + b (ix1 q)

/-- The new cell state: forget gate times the old cell state plus input gate times candidate. -/
def newCell (x h c : (⟨2, ![262144, 128]⟩ : Shape).Idx → EReal) (wx wh : (⟨2, ![128, 512]⟩ : Shape).Idx → EReal)
    (b : (⟨1, ![512]⟩ : Shape).Idx → EReal) : (⟨2, ![262144, 128]⟩ : Shape).Idx → EReal := fun i =>
  Ideal.logistic (pre x h wx wh b (i 0) (col 128 (by omega) (i 1))) * c i
    + Ideal.logistic (pre x h wx wh b (i 0) (col 0 (by omega) (i 1))) * Ideal.tanh (pre x h wx wh b (i 0) (col 256 (by omega) (i 1)))

/-- The new hidden state: output gate times the hyperbolic tangent of the new cell state. -/
def newHidden (x h c : (⟨2, ![262144, 128]⟩ : Shape).Idx → EReal) (wx wh : (⟨2, ![128, 512]⟩ : Shape).Idx → EReal)
    (b : (⟨1, ![512]⟩ : Shape).Idx → EReal) : (⟨2, ![262144, 128]⟩ : Shape).Idx → EReal := fun i =>
  Ideal.logistic (pre x h wx wh b (i 0) (col 384 (by omega) (i 1))) * Ideal.tanh (newCell x h c wx wh b i)

/-- The float one is the real one. -/
theorem one_f32 : Ideal.ofBits .f32 0x3F800000#32 = 1 := by
  simp [Ideal.ofBits, Ideal.ieee, -EReal.coe_mul] <;> norm_num

/-- The logistic function spelled out over the float one. -/
theorem logistic_spelled (y : EReal) :
    Ideal.div (Ideal.ofBits .f32 0x3F800000#32) (Ideal.ofBits .f32 0x3F800000#32 + Ideal.exp (-y)) = Ideal.logistic y := by
  rw [one_f32]; rfl

end Cert.LstmCell

end
-- ==== Proof.IdealGates.lean ====
/-
  The body's arithmetic on one batch tile, read entry by entry over the extended reals.

  On a tile of 2048 rows the body forms the [2048, 512] pre-activations `x·wx + h·wh + b` (two matrix products
  into zero accumulators, the bias row laid down the rows), cuts them into the four [2048, 128] gate blocks at
  columns 0, 128, 256 and 384, and combines them: `c' = σ(f)·c + σ(i)·tanh(g)`, `h' = σ(o)·tanh(c')`.
  Rounding the operands of the products to bf16 is the identity on the extended reals.

  `pre_tile`, `cell_tile`, `hidden_tile` read the three stored or shared values at an entry of the tile;
  `pre_row`, `cell_row`, `hidden_row` restate them as the cell's functions (`Cert.LstmCell`) of whole arrays,
  given that the tile's row `a` is row `R` of those arrays.
-/
import proofs.«173723_j14362370638361_1_alg».proof.Proof.Gen.KernelIdeal.Skeleton
import proofs.«173723_j14362370638361_1_alg».proof.Proof.LibTiles
import proofs.«173723_j14362370638361_1_alg».proof.Proof.CellSpec
import Idealize.ShloMosaic.Lib.Pipeline.Value
import Idealize.ShloMosaic.Lib.ValueIdx

noncomputable section

namespace Cert.KernelIdeal.Gates

open Cert.KernelIdeal Cert.KernelIdeal.Gen Idealize.ShloMosaic Idealize.ShloMosaic.ValueIdx Cert.LstmCell

/-- The pre-activation of tile row `a` in fused column `q`. -/
theorem pre_tile (x0 x1 : Vec Ideal S2048x128 .f32) (wx wh : Vec Ideal S128x512 .bf16) (b : Vec Ideal S1x512 .f32)
    (a : Fin 2048) (q : Fin 512) :
    k0_pay1 (F := Ideal) x0 x1 wx wh b (ix2 a q)
      = (∑ k : Fin 128, x0 (ix2 a k) * wx (ix2 k q) + ∑ k : Fin 128, x1 (ix2 a k) * wh (ix2 k q)) + b (ix2 (0 : Fin 1) q) := by
  unfold k0_pay1
  rw [addf_apply, addf_apply, shapeCast_self, shapeCast_self, shapeCast_self, Cert.LibTiles.broadcast_row_apply]
  refine congrArg₂ (· + ·) (congrArg₂ (· + ·) ?_ ?_) rfl
  · exact Cert.LibTiles.matmul_zero_apply dot_S2048x128_S128x512_S2048x512_1_0_0_1_n_n_wf none x0 wx a q
  · exact Cert.LibTiles.matmul_zero_apply dot_S2048x128_S128x512_S2048x512_1_0_0_1_n_n_wf none x1 wh a q

/-- The gate block starting at fused column `o`, at tile entry (a, j): the pre-activations' entry (a, o + j). -/
theorem slice_at (v : FVec Ideal S2048x512 .f32) (a : Fin 2048) (j : Fin 128) (o : Nat) (ho : o + 128 ≤ 512)
    (hs : S2048x512.Slices ![0, o] S2048x128) :
    extractStridedSlice S2048x128 ![0, o] v hs (ix2 a j) = v (ix2 a (col o ho j)) :=
  extractStridedSlice_apply _ _ _ _ _ (fun ax => by
    match ax with
    | ⟨0, _⟩ => exact (Nat.zero_add _).symm
    | ⟨1, _⟩ => rfl)

/-- The logistic function and the hyperbolic tangent act entry by entry. -/
theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-- The stored cell state at tile entry (a, j). -/
theorem cell_tile (x0 x1 x2 : Vec Ideal S2048x128 .f32) (wx wh : Vec Ideal S128x512 .bf16) (b : Vec Ideal S1x512 .f32)
    (a : Fin 2048) (j : Fin 128) :
    k0_pay2 (F := Ideal) x0 x1 wx wh b x2 (ix2 a j)
      = Ideal.logistic (k0_pay1 (F := Ideal) x0 x1 wx wh b (ix2 a (col 128 (by omega) j))) * x2 (ix2 a j)
        + Ideal.logistic (k0_pay1 (F := Ideal) x0 x1 wx wh b (ix2 a (col 0 (by omega) j)))
          * Ideal.tanh (k0_pay1 (F := Ideal) x0 x1 wx wh b (ix2 a (col 256 (by omega) j))) := by
  unfold k0_pay2
  rw [addf_apply, mulf_apply, mulf_apply, logistic_at, logistic_at, tanh_at,
    slice_at _ a j 128 (by omega), slice_at _ a j 0 (by omega), slice_at _ a j 256 (by omega)]

/-- The stored hidden state at tile entry (a, j). -/
theorem hidden_tile (x0 x1 x2 : Vec Ideal S2048x128 .f32) (wx wh : Vec Ideal S128x512 .bf16) (b : Vec Ideal S1x512 .f32)
    (a : Fin 2048) (j : Fin 128) :
    k0_pay3 (F := Ideal) x0 x1 wx wh b x2 (ix2 a j)
      = Ideal.logistic (k0_pay1 (F := Ideal) x0 x1 wx wh b (ix2 a (col 384 (by omega) j)))
        * Ideal.tanh (k0_pay2 (F := Ideal) x0 x1 wx wh b x2 (ix2 a j)) := by
  unfold k0_pay3
  rw [mulf_apply, logistic_at, tanh_at, slice_at _ a j 384 (by omega)]

section Rows

variable (X H C : (⟨2, ![262144, 128]⟩ : Shape).Idx → EReal) (WX WH : (⟨2, ![128, 512]⟩ : Shape).Idx → EReal)
  (B : (⟨1, ![512]⟩ : Shape).Idx → EReal)
  (x0 x1 x2 : Vec Ideal S2048x128 .f32) (wx wh : Vec Ideal S128x512 .bf16) (b : Vec Ideal S1x512 .f32)
  (R : Fin 262144) (a : Fin 2048)
  (hx : ∀ k : Fin 128, x0 (ix2 a k) = X (ix2 R k)) (hh : ∀ k : Fin 128, x1 (ix2 a k) = H (ix2 R k))
  (hwx : ∀ (k : Fin 128) (q : Fin 512), wx (ix2 k q) = WX (ix2 k q))
  (hwh : ∀ (k : Fin 128) (q : Fin 512), wh (ix2 k q) = WH (ix2 k q))
  (hb : ∀ q : Fin 512, b (ix2 (0 : Fin 1) q) = B (ix1 q))

include hx hh hwx hwh hb in
/-- When the tile's row `a` is row `R` of the batch: the tile's pre-activation is the cell's. -/
theorem pre_row (q : Fin 512) : k0_pay1 (F := Ideal) x0 x1 wx wh b (ix2 a q) = pre X H WX WH B R q := by
  rw [pre_tile]; unfold pre
  simp only [hx, hh, hwx, hwh, hb]

include hx hh hwx hwh hb in
/-- … the stored cell state is the cell's new cell state, -/
theorem cell_row (hc : ∀ j : Fin 128, x2 (ix2 a j) = C (ix2 R j)) (j : Fin 128) :
    k0_pay2 (F := Ideal) x0 x1 wx wh b x2 (ix2 a j) = newCell X H C WX WH B (ix2 R j) := by
  rw [cell_tile, pre_row X H WX WH B x0 x1 wx wh b R a hx hh hwx hwh hb, pre_row X H WX WH B x0 x1 wx wh b R a hx hh hwx hwh hb,
    pre_row X H WX WH B x0 x1 wx wh b R a hx hh hwx hwh hb, hc]
  rfl

include hx hh hwx hwh hb in
/-- … and the stored hidden state is the cell's new hidden state. -/
theorem hidden_row (hc : ∀ j : Fin 128, x2 (ix2 a j) = C (ix2 R j)) (j : Fin 128) :
    k0_pay3 (F := Ideal) x0 x1 wx wh b x2 (ix2 a j) = newHidden X H C WX WH B (ix2 R j) := by
  rw [hidden_tile, pre_row X H WX WH B x0 x1 wx wh b R a hx hh hwx hwh hb,
    cell_row X H C WX WH B x0 x1 x2 wx wh b R a hx hh hwx hwh hb hc]
  rfl

end Rows

end Cert.KernelIdeal.Gates

end
-- ==== Proof.IdealArrays.lean ====
/-
  What the idealized kernel's two result arrays hold after the run: the cell's new hidden state and new cell
  state of the argument arrays.

  Grid point `t` stages rows 2048·t … 2048·t + 2047 of x, h and c, and the whole joined matrices and bias row;
  the body computes the cell on those rows (module IdealGates), and the point writes the two tiles back to the
  same rows of the results. The 128 points' row ranges tile the 262144 rows, so every entry of a result is
  written by exactly the point `row / 2048`, with the cell's value there.
-/
import proofs.«173723_j14362370638361_1_alg».proof.Proof.IdealRegion
import proofs.«173723_j14362370638361_1_alg».proof.Proof.IdealGates
import Idealize.ShloMosaic.Lib.StableHlo.Run
import Idealize.ShloMosaic.Lib.Pipeline.Value
import Idealize.ShloMosaic.Lib.ValueLayout

set_option maxRecDepth 16384

noncomputable section

namespace Cert.KernelIdeal.Cell

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.LstmCell

variable (m : (ℓ : Loc nD τ sig) → Buf (Elt Ideal) ℓ) (ρ : Dev nD → PrngReg)

/-! ## The joined matrices and bias -/

/-- The four input-side gate matrices side by side. -/
def joinedX (c : Dev nD) : S128x512.Idx → EReal :=
  concatenate S128x512 1 [⟨S128x128, m ((c.tc : Thread nD τ).loc main_arg3)⟩, ⟨S128x128, m ((c.tc : Thread nD τ).loc main_arg6)⟩,
    ⟨S128x128, m ((c.tc : Thread nD τ).loc main_arg9)⟩, ⟨S128x128, m ((c.tc : Thread nD τ).loc main_arg12)⟩]
    concatenates_S128x128_S128x128_S128x128_S128x128_S128x512_d1

/-- The four hidden-side gate matrices side by side. -/
def joinedH (c : Dev nD) : S128x512.Idx → EReal :=
  concatenate S128x512 1 [⟨S128x128, m ((c.tc : Thread nD τ).loc main_arg4)⟩, ⟨S128x128, m ((c.tc : Thread nD τ).loc main_arg7)⟩,
    ⟨S128x128, m ((c.tc : Thread nD τ).loc main_arg10)⟩, ⟨S128x128, m ((c.tc : Thread nD τ).loc main_arg13)⟩]
    concatenates_S128x128_S128x128_S128x128_S128x128_S128x512_d1

/-- The four bias vectors end to end. -/
def joinedB (c : Dev nD) : S512.Idx → EReal :=
  concatenate S512 0 [⟨S128, m ((c.tc : Thread nD τ).loc main_arg5)⟩, ⟨S128, m ((c.tc : Thread nD τ).loc main_arg8)⟩,
    ⟨S128, m ((c.tc : Thread nD τ).loc main_arg11)⟩, ⟨S128, m ((c.tc : Thread nD τ).loc main_arg14)⟩]
    concatenates_S128_S128_S128_S128_S512_d0

/-- At region entry the bf16 input-side buffer holds the joined matrix (rounding is the identity here), -/
theorem entry_v1 (c : Dev nD) : (entry m c main_v1 : S128x512.Idx → EReal) = joinedX m c := by
  dsimp only [entry, hostOps0]; after_results; rfl

/-- the bf16 hidden-side buffer the joined hidden-side matrix, -/
theorem entry_v3 (c : Dev nD) : (entry m c main_v3 : S128x512.Idx → EReal) = joinedH m c := by
  dsimp only [entry, hostOps0]; after_results; rfl

/-- and the [1, 512] bias buffer the joined bias recast as one row. -/
theorem entry_v5 (c : Dev nD) : (entry m c main_v5 : S1x512.Idx → EReal) = shapeCast S1x512 (joinedB m c) shapeCasts_S512_S1x512 := by
  dsimp only [entry, hostOps0]; after_results; rfl

/-! ## The index maps over the grid -/

/-- Point `t` takes block (t, 0) of each batch array and of each result, and block (0, 0) of the parameters. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `a` of point `t`'s tile is row 2048·t + a of the batch. -/
def row (t : Fin cfg0.N) (a : Fin 2048) : Fin 262144 :=
  ⟨t.val * 2048 + a.val, by have := lt_of_lt_of_eq t.isLt N_0; have := a.isLt; omega⟩

theorem zeroOffsets : (![0, 0] : Fin 2 → Nat) = fun _ => 0 := funext fun a => by fin_cases a <;> rfl

/-! ## Reading the windows' blocks -/

/-- Window 0's block at point `t`, entry (a, k): the array's entry (2048·t + a, k). -/
theorem batchTile0 (A : S262144x128.Idx → EReal) (t : Fin cfg0.N) (a : Fin 2048) (k : Fin 128) :
    ((cfg0.win 0).blk t).view.read (Elt Ideal) A (ix2 a k) = A (ix2 (row t a) k) := by
  show A (((cfg0.win 0).blk t).view.emb (ix2 a k)) = A (ix2 (row t a) k)
  refine congrArg A ?_
  obtain ⟨e00, e01, e10, e11, e20, e21, -⟩ := blockIndex t
  funext ax; apply Fin.ext
  match ax with
  | ⟨0, _⟩ => show win0_0.index t (0 : Fin 2) * 2048 + 1 * a.val = t.val * 2048 + a.val; rw [e00]; omega
  | ⟨1, _⟩ => show win0_0.index t (1 : Fin 2) * 128 + 1 * k.val = k.val; rw [e01]; omega
/-- Window 1's block at point `t`, entry (a, k): the array's entry (2048·t + a, k). -/
theorem batchTile1 (A : S262144x128.Idx → EReal) (t : Fin cfg0.N) (a : Fin 2048) (k : Fin 128) :
    ((cfg0.win 1).blk t).view.read (Elt Ideal) A (ix2 a k) = A (ix2 (row t a) k) := by
  show A (((cfg0.win 1).blk t).view.emb (ix2 a k)) = A (ix2 (row t a) k)
  refine congrArg A ?_
  obtain ⟨e00, e01, e10, e11, e20, e21, -⟩ := blockIndex t
  funext ax; apply Fin.ext
  match ax with
  | ⟨0, _⟩ => show win0_1.index t (0 : Fin 2) * 2048 + 1 * a.val = t.val * 2048 + a.val; rw [e10]; omega
  | ⟨1, _⟩ => show win0_1.index t (1 : Fin 2) * 128 + 1 * k.val = k.val; rw [e11]; omega
/-- Window 2's block at point `t`, entry (a, k): the array's entry (2048·t + a, k). -/
theorem batchTile2 (A : S262144x128.Idx → EReal) (t : Fin cfg0.N) (a : Fin 2048) (k : Fin 128) :
    ((cfg0.win 2).blk t).view.read (Elt Ideal) A (ix2 a k) = A (ix2 (row t a) k) := by
  show A (((cfg0.win 2).blk t).view.emb (ix2 a k)) = A (ix2 (row t a) k)
  refine congrArg A ?_
  obtain ⟨e00, e01, e10, e11, e20, e21, -⟩ := blockIndex t
  funext ax; apply Fin.ext
  match ax with
  | ⟨0, _⟩ => show win0_2.index t (0 : Fin 2) * 2048 + 1 * a.val = t.val * 2048 + a.val; rw [e20]; omega
  | ⟨1, _⟩ => show win0_2.index t (1 : Fin 2) * 128 + 1 * k.val = k.val; rw [e21]; omega

/-- Window 3's block at any point is the whole [128, 512] matrix. -/
theorem wholeMatrix3 (A : S128x512.Idx → EReal) (t : Fin cfg0.N) (k : Fin 128) (q : Fin 512) :
    ((cfg0.win 3).blk t).view.read (Elt Ideal) A (ix2 k q) = A (ix2 k q) := by
  show A (((cfg0.win 3).blk t).view.emb (ix2 k q)) = A (ix2 k q)
  refine congrArg A ?_
  obtain ⟨-, -, -, -, -, -, e30, e31, e40, e41, -⟩ := blockIndex t
  funext ax; apply Fin.ext
  match ax with
  | ⟨0, _⟩ => show win0_3.index t (0 : Fin 2) * 128 + 1 * k.val = k.val; rw [e30]; omega
  | ⟨1, _⟩ => show win0_3.index t (1 : Fin 2) * 512 + 1 * q.val = q.val; rw [e31]; omega
/-- Window 4's block at any point is the whole [128, 512] matrix. -/
theorem wholeMatrix4 (A : S128x512.Idx → EReal) (t : Fin cfg0.N) (k : Fin 128) (q : Fin 512) :
    ((cfg0.win 4).blk t).view.read (Elt Ideal) A (ix2 k q) = A (ix2 k q) := by
  show A (((cfg0.win 4).blk t).view.emb (ix2 k q)) = A (ix2 k q)
  refine congrArg A ?_
  obtain ⟨-, -, -, -, -, -, e30, e31, e40, e41, -⟩ := blockIndex t
  funext ax; apply Fin.ext
  match ax with
  | ⟨0, _⟩ => show win0_4.index t (0 : Fin 2) * 128 + 1 * k.val = k.val; rw [e40]; omega
  | ⟨1, _⟩ => show win0_4.index t (1 : Fin 2) * 512 + 1 * q.val = q.val; rw [e41]; omega

/-- Window 5's block at any point is the whole bias row. -/
theorem wholeRow5 (A : S1x512.Idx → EReal) (t : Fin cfg0.N) (q : Fin 512) :
    ((cfg0.win 5).blk t).view.read (Elt Ideal) A (ix2 (0 : Fin 1) q) = A (ix2 (0 : Fin 1) q) := by
  show A (((cfg0.win 5).blk t).view.emb (ix2 (0 : Fin 1) q)) = A (ix2 (0 : Fin 1) q)
  refine congrArg A ?_
  obtain ⟨-, -, -, -, -, -, -, -, -, -, e50, e51, -⟩ := blockIndex t
  funext ax; apply Fin.ext
  match ax with
  | ⟨0, _⟩ => show win0_5.index t (0 : Fin 2) * 1 + 1 * 0 = 0; rw [e50]
  | ⟨1, _⟩ => show win0_5.index t (1 : Fin 2) * 512 + 1 * q.val = q.val; rw [e51]; omega

/-- A tile that agrees entry by entry with rows 2048·t … of an array `G` is result window 6's block of `G` at `t`. -/
theorem resultTile6 (t : Fin cfg0.N) (p : Vec Ideal S2048x128 .f32) (G : S262144x128.Idx → EReal)
    (h : ∀ (a : Fin 2048) (j : Fin 128), p (ix2 a j) = G (ix2 (row t a) j)) :
    p = ((cfg0.win 6).blk t).view.read (Elt Ideal) G := by
  funext y
  rw [(congrArg p (eq_ix2 y)).trans (h (y 0) (y 1))]
  show G (ix2 (row t (y 0)) (y 1)) = G (((cfg0.win 6).blk t).view.emb y)
  refine congrArg G ?_
  obtain ⟨-, -, -, -, -, -, -, -, -, -, -, -, e60, e61, e70, e71⟩ := blockIndex t
  funext ax; apply Fin.ext
  match ax with
  | ⟨0, _⟩ => show t.val * 2048 + (y 0).val = win0_6.index t (0 : Fin 2) * 2048 + 1 * (y 0).val; rw [e60]; omega
  | ⟨1, _⟩ => show (y 1).val = win0_6.index t (1 : Fin 2) * 128 + 1 * (y 1).val; rw [e61]; omega
/-- A tile that agrees entry by entry with rows 2048·t … of an array `G` is result window 7's block of `G` at `t`. -/
theorem resultTile7 (t : Fin cfg0.N) (p : Vec Ideal S2048x128 .f32) (G : S262144x128.Idx → EReal)
    (h : ∀ (a : Fin 2048) (j : Fin 128), p (ix2 a j) = G (ix2 (row t a) j)) :
    p = ((cfg0.win 7).blk t).view.read (Elt Ideal) G := by
  funext y
  rw [(congrArg p (eq_ix2 y)).trans (h (y 0) (y 1))]
  show G (ix2 (row t (y 0)) (y 1)) = G (((cfg0.win 7).blk t).view.emb y)
  refine congrArg G ?_
  obtain ⟨-, -, -, -, -, -, -, -, -, -, -, -, e60, e61, e70, e71⟩ := blockIndex t
  funext ax; apply Fin.ext
  match ax with
  | ⟨0, _⟩ => show t.val * 2048 + (y 0).val = win0_7.index t (0 : Fin 2) * 2048 + 1 * (y 0).val; rw [e70]; omega
  | ⟨1, _⟩ => show (y 1).val = win0_7.index t (1 : Fin 2) * 128 + 1 * (y 1).val; rw [e71]; omega

/-! ## What each point writes back -/

section Wrote

variable (c : Dev nD) (t : Fin cfg0.N)

/-- The six facts that make the body's tile lemmas apply at point `t`: its input tiles are the rows 2048·t … of
    x, h, c, the whole joined matrices, and the joined bias as a row. -/
theorem tileX (a : Fin 2048) (k : Fin 128) : tile m c 0 t (ix2 a k) = m ((c.tc : Thread nD τ).loc main_arg0) (ix2 (row t a) k) := by
  unfold tile; rw [batchTile0]; exact congrFun (entry_arg0 m c) _
theorem tileH (a : Fin 2048) (k : Fin 128) : tile m c 1 t (ix2 a k) = m ((c.tc : Thread nD τ).loc main_arg1) (ix2 (row t a) k) := by
  unfold tile; rw [batchTile1]; exact congrFun (entry_arg1 m c) _
theorem tileC (a : Fin 2048) (j : Fin 128) : tile m c 2 t (ix2 a j) = m ((c.tc : Thread nD τ).loc main_arg2) (ix2 (row t a) j) := by
  unfold tile; rw [batchTile2]; exact congrFun (entry_arg2 m c) _
theorem tileWX (k : Fin 128) (q : Fin 512) : tile m c 3 t (ix2 k q) = joinedX m c (ix2 k q) := by
  unfold tile; rw [wholeMatrix3]; exact congrFun (entry_v1 m c) _
theorem tileWH (k : Fin 128) (q : Fin 512) : tile m c 4 t (ix2 k q) = joinedH m c (ix2 k q) := by
  unfold tile; rw [wholeMatrix4]; exact congrFun (entry_v3 m c) _
theorem tileB (q : Fin 512) : tile m c 5 t (ix2 (0 : Fin 1) q) = joinedB m c (ix1 q) := by
  unfold tile; rw [wholeRow5]
  exact (congrFun (entry_v5 m c) _).trans (shapeCast_a_1a_apply _ _ _ _)

/-- Point `t` writes back, to the hidden-state result, block `t` of the cell's new hidden state. -/
theorem wroteHidden : (cells m 0 c).flushed 6 t = ((cfg0.win 6).blk t).view.read (Elt Ideal)
      (newHidden (m ((c.tc : Thread nD τ).loc main_arg0)) (m ((c.tc : Thread nD τ).loc main_arg1)) (m ((c.tc : Thread nD τ).loc main_arg2))
        (joinedX m c) (joinedH m c) (joinedB m c)) := by
  show (cfg0.win 6).cut (grid0.coords t) ((cells m 0 c).after 6 t) = _
  rw [after6]
  unfold hiddenTile
  rw [View.canon_unit_zero zeroOffsets]
  simp only [View.ld_unit_zero (S := S2048x128) zeroOffsets, View.ld_unit_zero (S := S128x512) zeroOffsets, View.ld_unit_zero (S := S1x512) zeroOffsets]
  refine resultTile6 t _ _ fun a j => ?_
  exact Cert.KernelIdeal.Gates.hidden_row _ _ _ _ _ _ (tile m c 0 t) (tile m c 1 t) (tile m c 2 t) (tile m c 3 t) (tile m c 4 t) (tile m c 5 t)
    (row t a) a (tileX m c t a) (tileH m c t a) (tileWX m c t) (tileWH m c t) (tileB m c t) (tileC m c t a) j

/-- Point `t` writes back, to the cell-state result, block `t` of the cell's new cell state. -/
theorem wroteCell : (cells m 0 c).flushed 7 t = ((cfg0.win 7).blk t).view.read (Elt Ideal)
      (newCell (m ((c.tc : Thread nD τ).loc main_arg0)) (m ((c.tc : Thread nD τ).loc main_arg1)) (m ((c.tc : Thread nD τ).loc main_arg2))
        (joinedX m c) (joinedH m c) (joinedB m c)) := by
  show (cfg0.win 7).cut (grid0.coords t) ((cells m 0 c).after 7 t) = _
  rw [after7]
  unfold cellTile
  rw [View.canon_unit_zero zeroOffsets]
  simp only [View.ld_unit_zero (S := S2048x128) zeroOffsets, View.ld_unit_zero (S := S128x512) zeroOffsets, View.ld_unit_zero (S := S1x512) zeroOffsets]
  refine resultTile7 t _ _ fun a j => ?_
  exact Cert.KernelIdeal.Gates.cell_row _ _ _ _ _ _ (tile m c 0 t) (tile m c 1 t) (tile m c 2 t) (tile m c 3 t) (tile m c 4 t) (tile m c 5 t)
    (row t a) a (tileX m c t a) (tileH m c t a) (tileWX m c t) (tileWH m c t) (tileB m c t) (tileC m c t a) j

end Wrote

/-! ## The points' blocks tile the results -/

/-- An index is in point `t`'s block of result window 6 iff each coordinate is in the block's range. -/
theorem inBlock6 (t : Fin cfg0.N) (i : S262144x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v6_0).slice (win0_6.rect t)).set ↔ _
  rw [View.set_slice_whole, Rect.mem_set_unit]
  exact Iff.rfl

/-- Row r of the result lies in the block of point r / 2048. -/
theorem covered6 (i : S262144x128.Idx) : ∃ t : Fin cfg0.N, (cfg0.win 6).flush t = true ∧ i ∈ ((cfg0.win 6).blk t).view.set := by
  have hi0 : (i 0).val < 262144 := (i 0).isLt
  have hi1 : (i 1).val < 128 := (i 1).isLt
  let t : Fin cfg0.N := ⟨(i 0).val / 2048, by rw [show cfg0.N = 128 from N_0]; omega⟩
  have ht : t.val = (i 0).val / 2048 := rfl
  obtain ⟨-, -, -, -, -, -, -, -, -, -, -, -, e60, e61, e70, e71⟩ := blockIndex t
  refine ⟨t, flush0_6 t, ?_⟩
  rw [inBlock6]
  intro a
  match a with
  | ⟨0, _⟩ => show win0_6.index t (0 : Fin 2) * 2048 ≤ (i 0).val ∧ (i 0).val < win0_6.index t (0 : Fin 2) * 2048 + 2048; rw [e60]; omega
  | ⟨1, _⟩ => show win0_6.index t (1 : Fin 2) * 128 ≤ (i 1).val ∧ (i 1).val < win0_6.index t (1 : Fin 2) * 128 + 128; rw [e61]; omega
/-- An index is in point `t`'s block of result window 7 iff each coordinate is in the block's range. -/
theorem inBlock7 (t : Fin cfg0.N) (i : S262144x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v6_1).slice (win0_7.rect t)).set ↔ _
  rw [View.set_slice_whole, Rect.mem_set_unit]
  exact Iff.rfl

/-- Row r of the result lies in the block of point r / 2048. -/
theorem covered7 (i : S262144x128.Idx) : ∃ t : Fin cfg0.N, (cfg0.win 7).flush t = true ∧ i ∈ ((cfg0.win 7).blk t).view.set := by
  have hi0 : (i 0).val < 262144 := (i 0).isLt
  have hi1 : (i 1).val < 128 := (i 1).isLt
  let t : Fin cfg0.N := ⟨(i 0).val / 2048, by rw [show cfg0.N = 128 from N_0]; omega⟩
  have ht : t.val = (i 0).val / 2048 := rfl
  obtain ⟨-, -, -, -, -, -, -, -, -, -, -, -, e60, e61, e70, e71⟩ := blockIndex t
  refine ⟨t, flush0_7 t, ?_⟩
  rw [inBlock7]
  intro a
  match a with
  | ⟨0, _⟩ => show win0_7.index t (0 : Fin 2) * 2048 ≤ (i 0).val ∧ (i 0).val < win0_7.index t (0 : Fin 2) * 2048 + 2048; rw [e70]; omega
  | ⟨1, _⟩ => show win0_7.index t (1 : Fin 2) * 128 ≤ (i 1).val ∧ (i 1).val < win0_7.index t (1 : Fin 2) * 128 + 128; rw [e71]; omega

/-! ## The results -/

/-- After the run the hidden-state result is the cell's new hidden state of the arguments, -/
theorem hiddenArray (c : Dev nD) : (cells m 0 c).arrAt 6 cfg0.N =
    newHidden (m ((c.tc : Thread nD τ).loc main_arg0)) (m ((c.tc : Thread nD τ).loc main_arg1)) (m ((c.tc : Thread nD τ).loc main_arg2))
      (joinedX m c) (joinedH m c) (joinedB m c) :=
  (cells m 0 c).arrAt_eq_of_cover 6 _ (fun t _ => wroteHidden m c t) covered6

/-- and the cell-state result its new cell state. -/
theorem cellArray (c : Dev nD) : (cells m 0 c).arrAt 7 cfg0.N =
    newCell (m ((c.tc : Thread nD τ).loc main_arg0)) (m ((c.tc : Thread nD τ).loc main_arg1)) (m ((c.tc : Thread nD τ).loc main_arg2))
      (joinedX m c) (joinedH m c) (joinedB m c) :=
  (cells m 0 c).arrAt_eq_of_cover 7 _ (fun t _ => wroteCell m c t) covered7

/-- Every fair execution of the idealized kernel terminates with the two results at the cell's functions of the
    argument arrays and the arguments unchanged. -/
theorem results : θ_run defs (onTc (τ := τ) (main (F := Ideal))) ⟨m, fun _ => 0, ρ⟩ (fun r => ∀ c : Dev nD,
      r.2.mem ((c.tc : Thread nD τ).loc main_v6_0) = newHidden (m ((c.tc : Thread nD τ).loc main_arg0)) (m ((c.tc : Thread nD τ).loc main_arg1)) (m ((c.tc : Thread nD τ).loc main_arg2)) (joinedX m c) (joinedH m c) (joinedB m c)
      ∧ r.2.mem ((c.tc : Thread nD τ).loc main_v6_1) = newCell (m ((c.tc : Thread nD τ).loc main_arg0)) (m ((c.tc : Thread nD τ).loc main_arg1)) (m ((c.tc : Thread nD τ).loc main_arg2)) (joinedX m c) (joinedH m c) (joinedB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 6).trans (hiddenArray m c), ((h c).1 7).trans (cellArray m c),
      ((h c).1 0).trans (((cells m 0 c).arrAt_in 0 rfl _).trans ((cells_A m c 0).trans (entry_arg0 m c))),
      ((h c).1 1).trans (((cells m 0 c).arrAt_in 1 rfl _).trans ((cells_A m c 1).trans (entry_arg1 m c))),
      ((h c).1 2).trans (((cells m 0 c).arrAt_in 2 rfl _).trans ((cells_A m c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩)
    (runs m ρ)

end Cert.KernelIdeal.Cell

end
-- ==== Proof.RefCell.lean ====
/-
  The reference program's stages, read entry by entry over the extended reals, are the cell's functions.

  The reference joins the gate matrices and biases exactly as the kernel's @main does, multiplies the whole batch
  by the joined matrices, adds the bias row, cuts the [262144, 512] pre-activations into the four gate blocks and
  combines them, spelling each logistic function as `1 / (1 + exp(-y))` over the float one.
-/
import proofs.«173723_j14362370638361_1_alg».proof.Proof.Gen.ReferenceIdeal.Read
import proofs.«173723_j14362370638361_1_alg».proof.Proof.CellSpec

noncomputable section

namespace Cert.ReferenceIdeal.Cell

open Cert.ReferenceIdeal Cert.ReferenceIdeal.Gen Cert.ReferenceIdeal.Read Idealize.ShloMosaic Idealize.ShloMosaic.ValueIdx Cert.LstmCell

variable (x0 x1 x2 : (⟨S262144x128, .f32⟩ : BufTy).Contents (Elt Ideal))
  (x3 x4 x6 x7 x9 x10 x12 x13 : (⟨S128x128, .f32⟩ : BufTy).Contents (Elt Ideal))
  (x5 x8 x11 x14 : (⟨S128, .f32⟩ : BufTy).Contents (Elt Ideal))

/-- The pre-activations at (R, q): both products as sums over the contracted column, plus the bias entry. -/
theorem pre_ref (R : Fin 262144) (q : Fin 512) :
    val_main_v8 (F := Ideal) x0 x1 x3 x4 x5 x6 x7 x8 x9 x10 x11 x12 x13 x14 (ix2 R q) = pre x0 x1 (val_main_v0 (F := Ideal) x3 x6 x9 x12) (val_main_v1 (F := Ideal) x4 x7 x10 x13) (val_main_v2 (F := Ideal) x5 x8 x11 x14) R q := by
  have l3 : ∀ k : Fin 128, lidx_main_v3 (ix2 R q) k = ix2 R k := fun k => funext fun a => by
    match a with | ⟨0, _⟩ => rfl | ⟨1, _⟩ => rfl
  have r3 : ∀ k : Fin 128, ridx_main_v3 (ix2 R q) k = ix2 k q := fun k => funext fun a => by
    match a with | ⟨0, _⟩ => rfl | ⟨1, _⟩ => rfl
  have l4 : ∀ k : Fin 128, lidx_main_v4 (ix2 R q) k = ix2 R k := fun k => funext fun a => by
    match a with | ⟨0, _⟩ => rfl | ⟨1, _⟩ => rfl
  have r4 : ∀ k : Fin 128, ridx_main_v4 (ix2 R q) k = ix2 k q := fun k => funext fun a => by
    match a with | ⟨0, _⟩ => rfl | ⟨1, _⟩ => rfl
  have e6 : idx_main_v6 (idx_main_v7 (ix2 R q)) = ix1 q := funext fun a => by
    match a with | ⟨0, _⟩ => rfl
  rw [val_main_v8_apply, val_main_v5_apply, val_main_v3_apply, val_main_v4_apply, val_main_v7_apply, val_main_v6_apply]
  unfold pre
  simp only [l3, r3, l4, r4, e6, Ideal.addf_def]

/-- The four gate blocks at (R, j) are the pre-activations at the block's columns. -/
theorem gate_i (R : Fin 262144) (j : Fin 128) :
    val_main_v9 (F := Ideal) x0 x1 x3 x4 x5 x6 x7 x8 x9 x10 x11 x12 x13 x14 (ix2 R j) = pre x0 x1 (val_main_v0 (F := Ideal) x3 x6 x9 x12) (val_main_v1 (F := Ideal) x4 x7 x10 x13) (val_main_v2 (F := Ideal) x5 x8 x11 x14) R (col 0 (by omega) j) := by
  rw [val_main_v9_apply, ← pre_ref]
  exact congrArg _ (funext fun a => by
    match a with | ⟨0, _⟩ => rfl | ⟨1, _⟩ => exact Fin.ext (Nat.zero_add _).symm)
theorem gate_f (R : Fin 262144) (j : Fin 128) :
    val_main_v10 (F := Ideal) x0 x1 x3 x4 x5 x6 x7 x8 x9 x10 x11 x12 x13 x14 (ix2 R j) = pre x0 x1 (val_main_v0 (F := Ideal) x3 x6 x9 x12) (val_main_v1 (F := Ideal) x4 x7 x10 x13) (val_main_v2 (F := Ideal) x5 x8 x11 x14) R (col 128 (by omega) j) := by
  rw [val_main_v10_apply, ← pre_ref]
  exact congrArg _ (funext fun a => by
    match a with | ⟨0, _⟩ => rfl | ⟨1, _⟩ => rfl)
theorem gate_g (R : Fin 262144) (j : Fin 128) :
    val_main_v11 (F := Ideal) x0 x1 x3 x4 x5 x6 x7 x8 x9 x10 x11 x12 x13 x14 (ix2 R j) = pre x0 x1 (val_main_v0 (F := Ideal) x3 x6 x9 x12) (val_main_v1 (F := Ideal) x4 x7 x10 x13) (val_main_v2 (F := Ideal) x5 x8 x11 x14) R (col 256 (by omega) j) := by
  rw [val_main_v11_apply, ← pre_ref]
  exact congrArg _ (funext fun a => by
    match a with | ⟨0, _⟩ => rfl | ⟨1, _⟩ => rfl)
theorem gate_o (R : Fin 262144) (j : Fin 128) :
    val_main_v12 (F := Ideal) x0 x1 x3 x4 x5 x6 x7 x8 x9 x10 x11 x12 x13 x14 (ix2 R j) = pre x0 x1 (val_main_v0 (F := Ideal) x3 x6 x9 x12) (val_main_v1 (F := Ideal) x4 x7 x10 x13) (val_main_v2 (F := Ideal) x5 x8 x11 x14) R (col 384 (by omega) j) := by
  rw [val_main_v12_apply, ← pre_ref]
  exact congrArg _ (funext fun a => by
    match a with | ⟨0, _⟩ => rfl | ⟨1, _⟩ => rfl)

/-- The three spelled-out logistic gates. -/
theorem sigma_i (R : Fin 262144) (j : Fin 128) :
    val_main_v18 (F := Ideal) x0 x1 x3 x4 x5 x6 x7 x8 x9 x10 x11 x12 x13 x14 (ix2 R j) = Ideal.logistic (pre x0 x1 (val_main_v0 (F := Ideal) x3 x6 x9 x12) (val_main_v1 (F := Ideal) x4 x7 x10 x13) (val_main_v2 (F := Ideal) x5 x8 x11 x14) R (col 0 (by omega) j)) := by
  rw [val_main_v18_apply, val_main_v17_apply, val_main_cst_0_apply, val_main_v16_apply, val_main_v15_apply, val_main_cst_apply,
    val_main_v14_apply, val_main_v13_apply, gate_i]
  exact logistic_spelled _
theorem sigma_f (R : Fin 262144) (j : Fin 128) :
    val_main_v24 (F := Ideal) x0 x1 x3 x4 x5 x6 x7 x8 x9 x10 x11 x12 x13 x14 (ix2 R j) = Ideal.logistic (pre x0 x1 (val_main_v0 (F := Ideal) x3 x6 x9 x12) (val_main_v1 (F := Ideal) x4 x7 x10 x13) (val_main_v2 (F := Ideal) x5 x8 x11 x14) R (col 128 (by omega) j)) := by
  rw [val_main_v24_apply, val_main_v23_apply, val_main_cst_2_apply, val_main_v22_apply, val_main_v21_apply, val_main_cst_1_apply,
    val_main_v20_apply, val_main_v19_apply, gate_f]
  exact logistic_spelled _
theorem sigma_o (R : Fin 262144) (j : Fin 128) :
    val_main_v31 (F := Ideal) x0 x1 x3 x4 x5 x6 x7 x8 x9 x10 x11 x12 x13 x14 (ix2 R j) = Ideal.logistic (pre x0 x1 (val_main_v0 (F := Ideal) x3 x6 x9 x12) (val_main_v1 (F := Ideal) x4 x7 x10 x13) (val_main_v2 (F := Ideal) x5 x8 x11 x14) R (col 384 (by omega) j)) := by
  rw [val_main_v31_apply, val_main_v30_apply, val_main_cst_4_apply, val_main_v29_apply, val_main_v28_apply, val_main_cst_3_apply,
    val_main_v27_apply, val_main_v26_apply, gate_o]
  exact logistic_spelled _

/-- The reference's new cell state is the cell's. -/
theorem cell_ref : val_main_v34 (F := Ideal) x0 x1 x2 x3 x4 x5 x6 x7 x8 x9 x10 x11 x12 x13 x14 = newCell x0 x1 x2 (val_main_v0 (F := Ideal) x3 x6 x9 x12) (val_main_v1 (F := Ideal) x4 x7 x10 x13) (val_main_v2 (F := Ideal) x5 x8 x11 x14) := by
  funext i
  obtain ⟨R, j, rfl⟩ : ∃ (R : Fin 262144) (j : Fin 128), i = ix2 R j := ⟨i 0, i 1, eq_ix2 i⟩
  rw [val_main_v34_apply, val_main_v32_apply, val_main_v33_apply, val_main_v25_apply, sigma_f, sigma_i, gate_g]
  rfl

/-- The reference's new hidden state is the cell's. -/
theorem hidden_ref : val_main_v36 (F := Ideal) x0 x1 x2 x3 x4 x5 x6 x7 x8 x9 x10 x11 x12 x13 x14 = newHidden x0 x1 x2 (val_main_v0 (F := Ideal) x3 x6 x9 x12) (val_main_v1 (F := Ideal) x4 x7 x10 x13) (val_main_v2 (F := Ideal) x5 x8 x11 x14) := by
  funext i
  obtain ⟨R, j, rfl⟩ : ∃ (R : Fin 262144) (j : Fin 128), i = ix2 R j := ⟨i 0, i 1, eq_ix2 i⟩
  rw [val_main_v36_apply, val_main_v35_apply, sigma_o, cell_ref]
  rfl

end Cert.ReferenceIdeal.Cell

end
-- ==== Proof.lean ====
/-
  A fused single-step LSTM cell on a batch of 262144 rows: a tiled kernel against a whole-array reference.

  Both programs join the four gates' input-side matrices into one [128, 512] matrix `wx`, the hidden-side ones
  into `wh` and the four biases into one 512-vector `b`, and compute

      pre = x · wx + h · wh + b,      c' = σ(pre_f) · c + σ(pre_i) · tanh(pre_g),      h' = σ(pre_o) · tanh(c'),

  returning (h', h', c'). The kernel does it tile by tile, 2048 rows per grid point, with the products' operands
  rounded to bf16 and the logistic function as one operation; the reference does it on the whole batch in f32
  with the logistic function spelled `1 / (1 + exp(-y))`. Over the extended reals rounding is the identity, a
  product into a zero accumulator is the plain sum of products, and the spelled-out logistic function is the
  logistic function, so the two programs compute the same entries; no entry's formula is rearranged, so
  finiteness of the inputs is not used.

  * the three frames: each program runs to the end, nothing faults, the arguments end unchanged (the kernel's
    two readings from its run as a pipeline, modules BitsRegion / IdealRegion; the reference's from its run);
  * the idealization rewrote nothing, so there is nothing to preserve;
  * the results: IdealArrays reads the kernel's two result arrays as the cell's functions (CellSpec) of the
    arguments, RefCell the reference's, and the arguments agree.
-/
import proofs.«173723_j14362370638361_1_alg».proof.Defs
import proofs.«173723_j14362370638361_1_alg».proof.Proof.Gen.Kernel
import proofs.«173723_j14362370638361_1_alg».proof.Proof.Gen.KernelIdeal
import proofs.«173723_j14362370638361_1_alg».proof.Proof.Gen.ReferenceIdeal
import proofs.«173723_j14362370638361_1_alg».proof.Proof.Gen.ReferenceIdeal.Run
import proofs.«173723_j14362370638361_1_alg».proof.Proof.Gen.ReferenceIdeal.Read
import proofs.«173723_j14362370638361_1_alg».proof.Proof.Gen.Pre_finite_inputs
import proofs.«173723_j14362370638361_1_alg».proof.Proof.BitsRegion
import proofs.«173723_j14362370638361_1_alg».proof.Proof.IdealRegion
import proofs.«173723_j14362370638361_1_alg».proof.Proof.IdealArrays
import proofs.«173723_j14362370638361_1_alg».proof.Proof.RefCell
import Idealize.ShloMosaic.Adequacy
import Idealize.ShloMosaic.Init

noncomputable section

namespace Cert.Proof

open Idealize.ShloMosaic Idealize.ShloMosaic.TcCoe Idealize.SL.Sem Cert.LstmCell

/-- The kernel as printed runs and keeps its arguments. -/
theorem frame_kernel : Cert.frame_Kernel := fun m ρ _ => Cert.Kernel.Cell.argumentsKept m ρ

/-- So does its idealization. -/
theorem frame_ideal : Cert.frame_KernelIdeal := fun m ρ _ => Cert.KernelIdeal.Cell.argumentsKept m ρ

/-- So does the reference: its run, with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments both programs end with (h', h', c') of the same arrays. -/
theorem algebraic : Cert.algebraic_KernelIdeal_ReferenceIdeal := by
  intro m ρ m' ρ' _ hagree
  refine ⟨fun c => newHidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Cell.joinedX m c) (Cert.KernelIdeal.Cell.joinedH m c) (Cert.KernelIdeal.Cell.joinedB m c),
    fun c => newHidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Cell.joinedX m c) (Cert.KernelIdeal.Cell.joinedH m c) (Cert.KernelIdeal.Cell.joinedB m c),
    fun c => newCell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Cell.joinedX m c) (Cert.KernelIdeal.Cell.joinedH m c) (Cert.KernelIdeal.Cell.joinedB m c),
    (θ_run Cert.KernelIdeal.defs _ _).mono (fun _ h c => ⟨(h c).1, (h c).1, (h c).2.1, (h c).2.2⟩) (Cert.KernelIdeal.Cell.results m ρ), ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · obtain ⟨h0, h1, h2, h3, h4, h5, h6, h7, h8, h9, h10, h11, h12, h13, h14⟩ := hagree c
    rw [Cert.ReferenceIdeal.Read.val_main_v36_eq, Cert.ReferenceIdeal.Cell.hidden_ref, h0, h1, h2, h3, h4, h5, h6, h7, h8, h9, h10, h11, h12, h13, h14]
    rfl
  · obtain ⟨h0, h1, h2, h3, h4, h5, h6, h7, h8, h9, h10, h11, h12, h13, h14⟩ := hagree c
    rw [Cert.ReferenceIdeal.Read.val_main_v36_eq, Cert.ReferenceIdeal.Cell.hidden_ref, h0, h1, h2, h3, h4, h5, h6, h7, h8, h9, h10, h11, h12, h13, h14]
    rfl
  · obtain ⟨h0, h1, h2, h3, h4, h5, h6, h7, h8, h9, h10, h11, h12, h13, h14⟩ := hagree c
    rw [Cert.ReferenceIdeal.Read.val_main_v34_eq, Cert.ReferenceIdeal.Cell.cell_ref, h0, h1, h2, h3, h4, h5, h6, h7, h8, h9, h10, h11, h12, h13, h14]
    rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
